-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x40x128 : Shape := ⟨3, ![16384, 40, 128]⟩
abbrev S128x128 : Shape := ⟨2, ![128, 128]⟩
abbrev S_ : Shape := ⟨0, ![]⟩

class Facts : Prop where
  bcast_S_S16384x40x128 : S_.BroadcastsInDim S16384x40x128 (![] : Fin 0 → Fin S16384x40x128.rank)
  reducesTo_S16384x40x128_S_d0_1_2 : S16384x40x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S16384x40x128 .f32) (main_arg1 : FVec F S128x128 .f32) (main_arg2 : FVec F S128x128 .f32) (main_arg3 : FVec F S128x128 .f32) (main_arg4 : FVec F S128x128 .f32) : IVec S_ 1 :=
  let main_v0 : FVec F S16384x40x128 .f32 := Host.absf main_arg0
  let main_cst : FVec F S_ .f32 := constant S_ .f32 0x7F800000#32
  let main_v1 : FVec F S16384x40x128 .f32 := broadcastInDim S16384x40x128 ![] bcast_S_S16384x40x128 main_cst
  let main_v2 : IVec S16384x40x128 1 := cmpf .olt main_v0 main_v1
  let main_c : IVec S_ 1 := constantI S_ 1 1#1
  let main_v3 : IVec S_ 1 := (fun x v => Host.reduce IntOp.andi x v reducesTo_S16384x40x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S16384x40x128 : Shape := ⟨3, ![16384, 40, 128]⟩
abbrev S128x128 : Shape := ⟨2, ![128, 128]⟩
abbrev S128x40x128 : Shape := ⟨3, ![128, 40, 128]⟩
abbrev S5120x128 : Shape := ⟨2, ![5120, 128]⟩
abbrev S128x40x64 : Shape := ⟨3, ![128, 40, 64]⟩
abbrev S128x40x40 : Shape := ⟨3, ![128, 40, 40]⟩
abbrev S128x40 : Shape := ⟨2, ![128, 40]⟩
abbrev S128x40x1 : Shape := ⟨3, ![128, 40, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x40x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S16384x40x128, .f32⟩
  | .local _ .vmem, ⟨0, _⟩ => ⟨S128x40x128, .f32⟩
  | .local _ .vmem, ⟨1, _⟩ => ⟨S128x40x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x40x128, .f32⟩
  | .local _ .vmem, ⟨7, _⟩ => ⟨S128x40x128, .f32⟩
  | _, _ => ⟨S16384x40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S128x40x128_S128x40x128_0_0_0 : ∀ a, (![0, 0, 0] : Fin 3 → Nat) a + S128x40x128.size a ≤ S128x40x128.size a
  h_S128x40x128 : 0 < S128x40x128.numel
  shapeCasts_S128x40x128_S5120x128 : S128x40x128.ShapeCasts S5120x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S5120x128_S128x40x128 : S5120x128.ShapeCasts S128x40x128
  slices_S128x40x128_o0_0_0_S128x40x64 : S128x40x128.Slices ![0, 0, 0] S128x40x64
  reduces_S128x40x40_S128x40 : S128x40x40.Reduces [2] S128x40
  shapeCasts_S128x40_S128x40x1 : S128x40.ShapeCasts S128x40x1
  broadcasts_S128x40x1_S128x40x40 : S128x40x1.Broadcasts S128x40x40
  slices_S128x40x128_o0_0_64_S128x40x64 : S128x40x128.Slices ![0, 0, 64] S128x40x64
  concatenates_S128x40x64_S128x40x64_S128x40x128_d2 : Shape.Concatenates [S128x40x64, S128x40x64] S128x40x128 2
  dot_S5120x128_S128x128_S5120x128_1_0_0_1_n_n_wf : DotDims.WF S5120x128 S128x128 S5120x128 [1] [0] [0] [1] [] []
  dot_S128x40x64_S128x40x64_S128x40x40_2_2_1_1_0_0_wf : DotDims.WF S128x40x64 S128x40x64 S128x40x40 [2] [2] [1] [1] [0] [0]
  dot_S128x40x40_S128x40x64_S128x40x64_2_1_1_2_0_0_wf : DotDims.WF S128x40x40 S128x40x64 S128x40x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x40x128.size a ≤ S16384x40x128.size a
  hwx0_0 : ∀ i : grid0.Coords, EltTy.bits .f32 = 32 ∨ (Rect.block (s := S16384x40x128) S128x40x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x40x128.size a ≤ S16384x40x128.size a
  hwx0_5 : ∀ i : grid0.Coords, EltTy.bits .f32 = 32 ∨ (Rect.block (s := S16384x40x128) S128x40x128.size (cc0_transform_5 i) (hinb0_5 i)).WholeWords (EltTy.packing .f32)

variable [Facts₀]

def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S128x40x64_S128x40x64_S128x40x40_2_2_1_1_0_0 : DotDims S128x40x64 S128x40x64 S128x40x40 where
  lhsContracting := [2]
  rhsContracting := [2]
  lhsNonContracting := [1]
  rhsNonContracting := [1]
  lhsBatch := [0]
  rhsBatch := [0]
  wf := dot_S128x40x64_S128x40x64_S128x40x40_2_2_1_1_0_0_wf
def dot_S128x40x40_S128x40x64_S128x40x64_2_1_1_2_0_0 : DotDims S128x40x40 S128x40x64 S128x40x64 where
  lhsContracting := [2]
  rhsContracting := [1]
  lhsNonContracting := [1]
  rhsNonContracting := [2]
  lhsBatch := [0]
  rhsBatch := [0]
  wf := dot_S128x40x40_S128x40x64_S128x40x64_2_1_1_2_0_0_wf

abbrev win0_0 : Pipeline.Window sig grid0 :=
  Pipeline.Window.ofSpec (Memref.whole main_arg0) S128x40x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x40x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x40x128 : Shape := ⟨3, ![16384, 40, 128]⟩
abbrev S128x128 : Shape := ⟨2, ![128, 128]⟩
abbrev S16384x40x2x64 : Shape := ⟨4, ![16384, 40, 2, 64]⟩
abbrev S2x16384x40x64 : Shape := ⟨4, ![2, 16384, 40, 64]⟩
abbrev S2x16384x40x40 : Shape := ⟨4, ![2, 16384, 40, 40]⟩
abbrev S_ : Shape := ⟨0, ![]⟩
abbrev S2x16384x40 : Shape := ⟨3, ![2, 16384, 40]⟩
abbrev S2x16384x40x1 : Shape := ⟨4, ![2, 16384, 40, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x40x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S16384x40x128, .f32⟩
  | .hbm, ⟨6, _⟩ => ⟨S16384x40x2x64, .f32⟩
  | .hbm, ⟨7, _⟩ => ⟨S2x16384x40x64, .f32⟩
  | .hbm, ⟨8, _⟩ => ⟨S16384x40x128, .f32⟩
  | .hbm, ⟨9, _⟩ => ⟨S16384x40x2x64, .f32⟩
  | .hbm, ⟨10, _⟩ => ⟨S2x16384x40x64, .f32⟩
  | .hbm, ⟨11, _⟩ => ⟨S16384x40x128, .f32⟩
  | .hbm, ⟨12, _⟩ => ⟨S16384x40x2x64, .f32⟩
  | .hbm, ⟨13, _⟩ => ⟨S2x16384x40x64, .f32⟩
  | .hbm, ⟨14, _⟩ => ⟨S2x16384x40x40, .f32⟩
  | .hbm, ⟨15, _⟩ => ⟨S_, .f32⟩
  | .hbm, ⟨16, _⟩ => ⟨S2x16384x40, .f32⟩
  | .hbm, ⟨17, _⟩ => ⟨S_, .f32⟩
  | .hbm, ⟨18, _⟩ => ⟨S2x16384x40, .f32⟩
  | .hbm, ⟨19, _⟩ => ⟨S2x16384x40, .f32⟩
  | .hbm, ⟨20, _⟩ => ⟨S2x16384x40x1, .f32⟩
  | .hbm, ⟨21, _⟩ => ⟨S2x16384x40x40, .f32⟩
  | .hbm, ⟨22, _⟩ => ⟨S2x16384x40x40, .f32⟩
  | .hbm, ⟨23, _⟩ => ⟨S2x16384x40x40, .f32⟩
  | .hbm, ⟨24, _⟩ => ⟨S_, .f32⟩
  | .hbm, ⟨25, _⟩ => ⟨S2x16384x40, .f32⟩
  | .hbm, ⟨26, _⟩ => ⟨S2x16384x40x1, .f32⟩
  | .hbm, ⟨27, _⟩ => ⟨S2x16384x40x40, .f32⟩
  | .hbm, ⟨28, _⟩ => ⟨S2x16384x40x40, .f32⟩
  | .hbm, ⟨29, _⟩ => ⟨S2x16384x40x64, .f32⟩
  | .hbm, ⟨30, _⟩ => ⟨S16384x40x2x64, .f32⟩
  | .hbm, ⟨31, _⟩ => ⟨S16384x40x128, .f32⟩
  | .hbm, ⟨32, _⟩ => ⟨S16384x40x128, .f32⟩
  | .hbm, ⟨33, _⟩ => ⟨S16384x40x128, .f32⟩
  | .hbm, ⟨34, _⟩ => ⟨S_, .f32⟩
  | .hbm, ⟨35, _⟩ => ⟨S16384x40x128, .f32⟩
  | .hbm, ⟨36, _⟩ => ⟨S16384x40x128, .f32⟩
  | _, _ => ⟨S16384x40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S16384x40x128_S16384x40x2x64 : S16384x40x128.ShapeCasts S16384x40x2x64
  transposes_S16384x40x2x64_S2x16384x40x64_2_0_1_3 : S16384x40x2x64.Transposes [2, 0, 1, 3] S2x16384x40x64
  reducesTo_S2x16384x40x40_S2x16384x40_d3 : S2x16384x40x40.ReducesTo [3] S2x16384x40
  h_S_ : 0 < S_.numel
  bcast_S_S2x16384x40 : S_.BroadcastsInDim S2x16384x40 (![] : Fin 0 → Fin S2x16384x40.rank)
  bcast_S2x16384x40_S2x16384x40x1_0_1_2 : S2x16384x40.BroadcastsInDim S2x16384x40x1 (![0, 1, 2] : Fin 3 → Fin S2x16384x40x1.rank)
  bcast_S2x16384x40x1_S2x16384x40x40_0_1_2_3 : S2x16384x40x1.BroadcastsInDim S2x16384x40x40 (![0, 1, 2, 3] : Fin 4 → Fin S2x16384x40x40.rank)
  transposes_S2x16384x40x64_S16384x40x2x64_1_2_0_3 : S2x16384x40x64.Transposes [1, 2, 0, 3] S16384x40x2x64
  shapeCasts_S16384x40x2x64_S16384x40x128 : S16384x40x2x64.ShapeCasts S16384x40x128
  bcast_S_S16384x40x128 : S_.BroadcastsInDim S16384x40x128 (![] : Fin 0 → Fin S16384x40x128.rank)
  dot_S16384x40x128_S128x128_S16384x40x128_2_0_01_1_n_n_wf : DotDims.WF S16384x40x128 S128x128 S16384x40x128 [2] [0] [0, 1] [1] [] []
  dot_S2x16384x40x64_S2x16384x40x64_S2x16384x40x40_3_3_2_2_01_01_wf : DotDims.WF S2x16384x40x64 S2x16384x40x64 S2x16384x40x40 [3] [3] [2] [2] [0, 1] [0, 1]
  dot_S2x16384x40x40_S2x16384x40x64_S2x16384x40x64_3_2_2_3_01_01_wf : DotDims.WF S2x16384x40x40 S2x16384x40x64 S2x16384x40x64 [3] [2] [2] [3] [0, 1] [0, 1]

variable [Facts₀]

def dot_S16384x40x128_S128x128_S16384x40x128_2_0_01_1_n_n : DotDims S16384x40x128 S128x128 S16384x40x128 where
  lhsContracting := [2]
  rhsContracting := [0]
  lhsNonContracting := [0, 1]
  rhsNonContracting := [1]
  lhsBatch := []
  rhsBatch := []
  wf := dot_S16384x40x128_S128x128_S16384x40x128_2_0_01_1_n_n_wf
def dot_S2x16384x40x64_S2x16384x40x64_S2x16384x40x40_3_3_2_2_01_01 : DotDims S2x16384x40x64 S2x16384x40x64 S2x16384x40x40 where
  lhsContracting := [3]
  rhsContracting := [3]
  lhsNonContracting := [2]
  rhsNonContracting := [2]
  lhsBatch := [0, 1]
  rhsBatch := [0, 1]
  wf := dot_S2x16384x40x64_S2x16384x40x64_S2x16384x40x40_3_3_2_2_01_01_wf
def dot_S2x16384x40x40_S2x16384x40x64_S2x16384x40x64_3_2_2_3_01_01 : DotDims S2x16384x40x40 S2x16384x40x64 S2x16384x40x64 where
  lhsContracting := [3]
  rhsContracting := [2]
  lhsNonContracting := [2]
  rhsNonContracting := [3]
  lhsBatch := [0, 1]
  rhsBatch := [0, 1]
  wf := dot_S2x16384x40x40_S2x16384x40x64_S2x16384x40x64_3_2_2_3_01_01_wf

class Facts : Prop extends Facts₀ where

variable [Facts]
-- ==== Proof.Spec.lean ====
/-
  Multi-head self-attention with a residual projection and a ReLU, as ONE function of the argument arrays.

  For one batch element the rows `X : Fin 40 → Fin 128 → EReal` are projected by four 128 × 128 matrices
  (query, key, value, residual): `proj X W f d = ∑ e, X f e · W e d`. The 128 projected columns are two heads of
  64 columns each, head `h` holding the columns `64 h + dd`. Within a head, row `q` attends to row `k` with
  the score `∑ dd, Q q dd · K k dd`; the scores of a row are normalised by the softmax written the stable way
  (the row's maximum, started from −∞, subtracted before the exponential; the exponentials divided by their
  sum), and the head's output is `∑ k, softmax q k · V k dd`. The result at column `d` is the positive part of
  the head output at (`d / 64`, `d % 64`) plus the residual projection at `d`.

  Everything here is stated on the extended reals with the operations of the ideal instance (`Ideal.exp`,
  `Ideal.div`); nothing is assumed finite, because both programs apply the same operations in the same order up to
  the order of the terms of a sum.
-/
import Idealize.ShloMosaic.PureOps.Ideal
import Idealize.ShloMosaic.Lib.ValueIdx

noncomputable section

namespace Cert.Attn

open Idealize.ShloMosaic Idealize.ShloMosaic.ValueIdx

/-- −∞ as the f32 word both programs write for it. -/
abbrev negInf : EReal := Ideal.ofBits .f32 0xFF800000#32

/-- The f32 zero word (the threshold of the ReLU). -/
abbrev zeroW : EReal := Ideal.ofBits .f32 0x00000000#32

/-- One batch element's projection: row `f` of `X` times column `d` of `W`. -/
def proj (X : Fin 40 → Fin 128 → EReal) (W : Fin 128 → Fin 128 → EReal) (f : Fin 40) (d : Fin 128) : EReal :=
  ∑ e : Fin 128, X f e * W e d

/-- Column `dd` of head `h` among the 128 projected columns. -/
def col (h : Fin 2) (dd : Fin 64) : Fin 128 := ⟨h.val * 64 + dd.val, by have := h.isLt; have := dd.isLt; omega⟩

/-- The score of query row `q` against key row `k` inside one head. -/
def score (Q K : Fin 40 → Fin 64 → EReal) (q k : Fin 40) : EReal := ∑ dd : Fin 64, Q q dd * K k dd

/-- The maximum of a row of scores, started from −∞ (and compared with −∞ once more, as both programs do). -/
def rowMax (s : Fin 40 → EReal) : EReal := max negInf ((Finset.univ : Finset (Fin 40)).fold max negInf s)

/-- The shifted exponential of a row of scores. -/
def rowExp (s : Fin 40 → EReal) (k : Fin 40) : EReal := Ideal.exp (s k - rowMax s)

/-- The softmax of a row of scores. -/
def softmax (s : Fin 40 → EReal) (k : Fin 40) : EReal := Ideal.div (rowExp s k) (∑ k' : Fin 40, rowExp s k')

/-- One head's output: the softmax-weighted sum of the value rows. -/
def head (Q K V : Fin 40 → Fin 64 → EReal) (q : Fin 40) (dd : Fin 64) : EReal :=
  ∑ k : Fin 40, softmax (score Q K q) k * V k dd

/-- One batch element's result: head `h` sees the projected columns `col h ·`; the head outputs laid side by side,
    plus the residual projection, clipped below at zero. -/
def attn (X : Fin 40 → Fin 128 → EReal) (Wq Wk Wv Wr : Fin 128 → Fin 128 → EReal) (q : Fin 40) (h : Fin 2) (dd : Fin 64) : EReal :=
  max (head (fun f c => proj X Wq f (col h c)) (fun f c => proj X Wk f (col h c)) (fun f c => proj X Wv f (col h c)) q dd
        + proj X Wr q (col h dd)) zeroW

/-- The head of column `d`. -/
def hd (d : Fin 128) : Fin 2 := ⟨d.val / 64, by have := d.isLt; omega⟩
/-- The position of column `d` inside its head. -/
def off (d : Fin 128) : Fin 64 := ⟨d.val % 64, by omega⟩

theorem col_hd_off (d : Fin 128) : col (hd d) (off d) = d := Fin.ext (by simp only [col, hd, off]; omega)

theorem hd_col (h : Fin 2) (dd : Fin 64) : hd (col h dd) = h :=
  Fin.ext (by have := h.isLt; have := dd.isLt; simp only [col, hd]; omega)
theorem off_col (h : Fin 2) (dd : Fin 64) : off (col h dd) = dd :=
  Fin.ext (by have := h.isLt; have := dd.isLt; simp only [col, off]; omega)

/-- THE RESULT ARRAY as one function of the five argument arrays, index by index: batch element `i 0`, row `i 1`,
    column `i 2`. -/
def G (x : (⟨3, ![16384, 40, 128]⟩ : Shape).Idx → EReal) (wq wk wv wr : (⟨2, ![128, 128]⟩ : Shape).Idx → EReal)
    (i : (⟨3, ![16384, 40, 128]⟩ : Shape).Idx) : EReal :=
  attn (fun f e => x (ix3 (i 0) f e)) (fun e d => wq (ix2 e d)) (fun e d => wk (ix2 e d)) (fun e d => wv (ix2 e d))
    (fun e d => wr (ix2 e d)) (i 1) (hd (i 2)) (off (i 2))

end Cert.Attn

end
-- ==== Proof.KerOps.lean ====
/-
  The vector operations of the kernel's body, read at an index on the extended reals.

  A block is 128 batch elements. Its rows are flattened to 5120 × 128 for the four projections (row `40 p + f` is row
  `f` of batch element `p`), each projection a matrix product into a zero accumulator, i.e. a plain sum over the 128
  input columns. A head's scores are a batched product over the head's 64 columns; a row's maximum and the sum of a
  row's exponentials are reductions along the last axis, put back on that axis by a cast to a unit axis and a
  broadcast along it; the head output is a batched product over the 40 key rows. Each lemma states one of these
  operations at explicit coordinates.
-/
import proofs.«127447_j10763188044027_1_alg».proof.Proof.Gen.KernelIdeal.Skeleton
import proofs.«127447_j10763188044027_1_alg».proof.Proof.Spec
import Idealize.ShloMosaic.Lib.Pipeline.Value
import Idealize.ShloMosaic.Lib.ValueIdx
import Idealize.ShloMosaic.PureOps.Ideal.Laws

noncomputable section

namespace Cert.Attn.Ker

open Idealize.ShloMosaic Idealize.ShloMosaic.ValueIdx Cert.KernelIdeal Cert.Attn

/-- The projection's dimension numbers: [5120,128] × [128,128], contracting the 128. -/
abbrev DP := dot_S5120x128_S128x128_S5120x128_1_0_0_1_n_n
/-- The scores' dimension numbers: batch 128, [40,64] × [40,64]ᵀ, contracting the 64. -/
abbrev DQK := dot_S128x40x64_S128x40x64_S128x40x40_2_2_1_1_0_0
/-- The head output's dimension numbers: batch 128, [40,40] × [40,64], contracting the 40 key rows. -/
abbrev DAV := dot_S128x40x40_S128x40x64_S128x40x64_2_1_1_2_0_0

/-! ## The three matrix products -/

/-- A projection's product at row `r`, column `d`: the sum over the 128 input columns. -/
theorem mm_proj (X : FVec Ideal S5120x128 .bf16) (W : FVec Ideal S128x128 .bf16) (r : Fin 5120) (d : Fin 128) :
    matmul DP none X W (constant S5120x128 .f32 0x00000000#32) (ix2 r d) = ∑ e : Fin 128, X (ix2 r e) * W (ix2 e d) := by
  simp only [matmul]
  rw [Ideal.matmul_constant_zero_apply, ← Equiv.sum_comp (contrEquiv1 DP 128 rfl rfl).symm]
  refine Finset.sum_congr rfl fun e _ => ?_
  have hk := contrEquiv1_symm_val DP 128 rfl rfl e
  have l0 : (DP.lhsIdx (ix2 r d) ((contrEquiv1 DP 128 rfl rfl).symm e) 0).val = r.val := by
    unfold DotDims.lhsIdx
    rw [dif_neg (show ¬(0 : Fin S5120x128.rank) ∈ DP.lhsBatch by decide), dif_pos (show (0 : Fin S5120x128.rank) ∈ DP.lhsNonContracting by decide)]
    rfl
  have l1 : (DP.lhsIdx (ix2 r d) ((contrEquiv1 DP 128 rfl rfl).symm e) 1).val = e.val :=
    (DP.lhsIdx_val_of_single rfl _ _).trans hk
  have r0 : (DP.rhsIdx (ix2 r d) ((contrEquiv1 DP 128 rfl rfl).symm e) 0).val = e.val :=
    (DP.rhsIdx_val_of_single rfl _ _).trans hk
  have r1 : (DP.rhsIdx (ix2 r d) ((contrEquiv1 DP 128 rfl rfl).symm e) 1).val = d.val := by
    unfold DotDims.rhsIdx
    rw [dif_neg (show ¬(1 : Fin S128x128.rank) ∈ DP.rhsBatch by decide), dif_pos (show (1 : Fin S128x128.rank) ∈ DP.rhsNonContracting by decide)]
    rfl
  have el : DP.lhsIdx (ix2 r d) ((contrEquiv1 DP 128 rfl rfl).symm e) = ix2 r e := funext fun a => Fin.ext (by
    match a with
    | ⟨0, _⟩ => exact l0
    | ⟨1, _⟩ => exact l1)
  have er : DP.rhsIdx (ix2 r d) ((contrEquiv1 DP 128 rfl rfl).symm e) = ix2 e d := funext fun a => Fin.ext (by
    match a with
    | ⟨0, _⟩ => exact r0
    | ⟨1, _⟩ => exact r1)
  rw [el, er]

/-- The scores' product at batch element `p`, query row `q`, key row `k`: the sum over the head's 64 columns. -/
theorem mm_scores (A B : FVec Ideal S128x40x64 .bf16) (p : Fin 128) (q k : Fin 40) :
    matmul DQK none A B (constant S128x40x40 .f32 0x00000000#32) (ix3 p q k) = ∑ dd : Fin 64, A (ix3 p q dd) * B (ix3 p k dd) := by
  simp only [matmul]
  rw [Ideal.matmul_constant_zero_apply, ← Equiv.sum_comp (contrEquiv1 DQK 64 rfl rfl).symm]
  refine Finset.sum_congr rfl fun dd _ => ?_
  have hk := contrEquiv1_symm_val DQK 64 rfl rfl dd
  have l0 : (DQK.lhsIdx (ix3 p q k) ((contrEquiv1 DQK 64 rfl rfl).symm dd) 0).val = p.val := by
    unfold DotDims.lhsIdx
    rw [dif_pos (show (0 : Fin S128x40x64.rank) ∈ DQK.lhsBatch by decide)]
    rfl
  have l1 : (DQK.lhsIdx (ix3 p q k) ((contrEquiv1 DQK 64 rfl rfl).symm dd) 1).val = q.val := by
    unfold DotDims.lhsIdx
    rw [dif_neg (show ¬(1 : Fin S128x40x64.rank) ∈ DQK.lhsBatch by decide), dif_pos (show (1 : Fin S128x40x64.rank) ∈ DQK.lhsNonContracting by decide)]
    rfl
  have l2 : (DQK.lhsIdx (ix3 p q k) ((contrEquiv1 DQK 64 rfl rfl).symm dd) 2).val = dd.val :=
    (DQK.lhsIdx_val_of_single rfl _ _).trans hk
  have r0 : (DQK.rhsIdx (ix3 p q k) ((contrEquiv1 DQK 64 rfl rfl).symm dd) 0).val = p.val := by
    unfold DotDims.rhsIdx
    rw [dif_pos (show (0 : Fin S128x40x64.rank) ∈ DQK.rhsBatch by decide)]
    rfl
  have r1 : (DQK.rhsIdx (ix3 p q k) ((contrEquiv1 DQK 64 rfl rfl).symm dd) 1).val = k.val := by
    unfold DotDims.rhsIdx
    rw [dif_neg (show ¬(1 : Fin S128x40x64.rank) ∈ DQK.rhsBatch by decide), dif_pos (show (1 : Fin S128x40x64.rank) ∈ DQK.rhsNonContracting by decide)]
    rfl
  have r2 : (DQK.rhsIdx (ix3 p q k) ((contrEquiv1 DQK 64 rfl rfl).symm dd) 2).val = dd.val :=
    (DQK.rhsIdx_val_of_single rfl _ _).trans hk
  have el : DQK.lhsIdx (ix3 p q k) ((contrEquiv1 DQK 64 rfl rfl).symm dd) = ix3 p q dd := funext fun a => Fin.ext (by
    match a with
    | ⟨0, _⟩ => exact l0
    | ⟨1, _⟩ => exact l1
    | ⟨2, _⟩ => exact l2)
  have er : DQK.rhsIdx (ix3 p q k) ((contrEquiv1 DQK 64 rfl rfl).symm dd) = ix3 p k dd := funext fun a => Fin.ext (by
    match a with
    | ⟨0, _⟩ => exact r0
    | ⟨1, _⟩ => exact r1
    | ⟨2, _⟩ => exact r2)
  rw [el, er]

/-- The head output's product at batch element `p`, query row `q`, column `dd`: the sum over the 40 key rows. -/
theorem mm_out (P : FVec Ideal S128x40x40 .bf16) (C : FVec Ideal S128x40x64 .bf16) (p : Fin 128) (q : Fin 40) (dd : Fin 64) :
    matmul DAV none P C (constant S128x40x64 .f32 0x00000000#32) (ix3 p q dd) = ∑ k : Fin 40, P (ix3 p q k) * C (ix3 p k dd) := by
  simp only [matmul]
  rw [Ideal.matmul_constant_zero_apply, ← Equiv.sum_comp (contrEquiv1 DAV 40 rfl rfl).symm]
  refine Finset.sum_congr rfl fun k _ => ?_
  have hk := contrEquiv1_symm_val DAV 40 rfl rfl k
  have l0 : (DAV.lhsIdx (ix3 p q dd) ((contrEquiv1 DAV 40 rfl rfl).symm k) 0).val = p.val := by
    unfold DotDims.lhsIdx
    rw [dif_pos (show (0 : Fin S128x40x40.rank) ∈ DAV.lhsBatch by decide)]
    rfl
  have l1 : (DAV.lhsIdx (ix3 p q dd) ((contrEquiv1 DAV 40 rfl rfl).symm k) 1).val = q.val := by
    unfold DotDims.lhsIdx
    rw [dif_neg (show ¬(1 : Fin S128x40x40.rank) ∈ DAV.lhsBatch by decide), dif_pos (show (1 : Fin S128x40x40.rank) ∈ DAV.lhsNonContracting by decide)]
    rfl
  have l2 : (DAV.lhsIdx (ix3 p q dd) ((contrEquiv1 DAV 40 rfl rfl).symm k) 2).val = k.val :=
    (DAV.lhsIdx_val_of_single rfl _ _).trans hk
  have r0 : (DAV.rhsIdx (ix3 p q dd) ((contrEquiv1 DAV 40 rfl rfl).symm k) 0).val = p.val := by
    unfold DotDims.rhsIdx
    rw [dif_pos (show (0 : Fin S128x40x64.rank) ∈ DAV.rhsBatch by decide)]
    rfl
  have r1 : (DAV.rhsIdx (ix3 p q dd) ((contrEquiv1 DAV 40 rfl rfl).symm k) 1).val = k.val :=
    (DAV.rhsIdx_val_of_single rfl _ _).trans hk
  have r2 : (DAV.rhsIdx (ix3 p q dd) ((contrEquiv1 DAV 40 rfl rfl).symm k) 2).val = dd.val := by
    unfold DotDims.rhsIdx
    rw [dif_neg (show ¬(2 : Fin S128x40x64.rank) ∈ DAV.rhsBatch by decide), dif_pos (show (2 : Fin S128x40x64.rank) ∈ DAV.rhsNonContracting by decide)]
    rfl
  have el : DAV.lhsIdx (ix3 p q dd) ((contrEquiv1 DAV 40 rfl rfl).symm k) = ix3 p q k := funext fun a => Fin.ext (by
    match a with
    | ⟨0, _⟩ => exact l0
    | ⟨1, _⟩ => exact l1
    | ⟨2, _⟩ => exact l2)
  have er : DAV.rhsIdx (ix3 p q dd) ((contrEquiv1 DAV 40 rfl rfl).symm k) = ix3 p k dd := funext fun a => Fin.ext (by
    match a with
    | ⟨0, _⟩ => exact r0
    | ⟨1, _⟩ => exact r1
    | ⟨2, _⟩ => exact r2)
  rw [el, er]

end Cert.Attn.Ker

end
-- ==== Proof.LibLastAxisRows.lean ====
/-
  Row statistics along the LAST axis of a rank-3 vector, at the ideal values, for any extents a, b, c.

  A softmax (or any normalisation with keepdims) over the last axis of an [a, b, c] vector takes a statistic of each
  row (p, q, ·) — its maximum, its sum — as a `vector.multi_reduction` over axis 2 into [a, b], and puts it back
  beside every entry of the row by a `vector.shape_cast` [a, b] → [a, b, 1] followed by a `vector.broadcast`
  [a, b, 1] → [a, b, c]. Read at (p, q, k):
  * `lift_last`: the reduced index (p, q) with coordinate `k` put back on axis 2 is (p, q, k);
  * `multiReduction_add_last`: the `<add>` reduction at (p, q) is `∑ k, src (p, q, k)`;
  * `multiReduction_maximumf_last`: the `<maximumf>` reduction at (p, q) is the fold of `max`, from the accumulator's
    value, over `k ↦ src (p, q, k)`;
  * `keepdims_last`: the cast and the broadcast read, at (p, q, k), the statistic at (p, q) — for `c = 1` too, and
    whatever `a` and `b` are.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.LastAxisRows

open Idealize.ShloMosaic Idealize.ShloMosaic.ValueIdx

variable {a b c : Nat}

/-- The reduced index (p, q) with coordinate `k` put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- A float `vector.multi_reduction <add>` over the last axis, at (p, q): the sum of the row's entries. -/
theorem multiReduction_add_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.add.neutral φ hφ) (p : Fin a) (q : Fin b) :
    multiReduction .add [2] (⟨2, ![a, b]⟩ : Shape) src acc h hφ hacc (ix2 p q) = ∑ k : Fin c, src (ix3 p q k) := by
  refine (Ideal.multiReduction_add_single src acc h hφ hacc (ix2 p q)).trans ?_
  exact Finset.sum_congr rfl fun k _ => congrArg src (lift_last h p q k)

/-- A float `vector.multi_reduction <maximumf>` over the last axis, at (p, q): the fold of `max` over the row's
    entries, from the accumulator's value. -/
theorem multiReduction_maximumf_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.maximumf.neutral φ hφ) (p : Fin a) (q : Fin b) :
    multiReduction .maximumf [2] (⟨2, ![a, b]⟩ : Shape) src acc h hφ hacc (ix2 p q)
      = (Finset.univ : Finset (Fin c)).fold max (FloatOps.ofBits φ acc) (fun k => src (ix3 p q k)) := by
  refine (Ideal.multiReduction_maximumf_single src acc h hφ hacc (ix2 p q)).trans ?_
  have hf : (src ∘ h.lift (ix2 p q)) = fun k : Fin c => src (ix3 p q k) := funext fun k => congrArg src (lift_last h p q k)
  exact congrArg (fun f => Finset.fold max (FloatOps.ofBits φ acc) f (Finset.univ : Finset (Fin c))) hf

/-- A row statistic put back on its row (keepdims): the cast to a unit last axis and the broadcast along it read, at
    (p, q, k), the statistic at (p, q). -/
theorem keepdims_last {α : Type} (R : (⟨2, ![a, b]⟩ : Shape).Idx → α)
    (h1 : (⟨2, ![a, b]⟩ : Shape).ShapeCasts (⟨3, ![a, b, 1]⟩ : Shape))
    (h2 : (⟨3, ![a, b, 1]⟩ : Shape).Broadcasts (⟨3, ![a, b, c]⟩ : Shape)) (p : Fin a) (q : Fin b) (k : Fin c) :
    broadcastTo (⟨3, ![a, b, c]⟩ : Shape) (shapeCast (⟨3, ![a, b, 1]⟩ : Shape) R h1) h2 (ix3 p q k) = R (ix2 p q) := by
  refine (broadcastTo_apply (shapeCast (⟨3, ![a, b, 1]⟩ : Shape) R h1) h2 (ix3 p q k) (ix3 p q (0 : Fin 1)) ?_).trans ?_
  · intro d
    match d with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => exact (if_pos rfl).symm
  · refine shapeCast_apply R h1 (ix3 p q (0 : Fin 1)) (ix2 p q) ?_
    rw [Shape.rowMajor_val_two, Shape.rowMajor_val_three]
    show p.val * b + q.val = (p.val * b + q.val) * 1 + 0
    omega

end Idealize.ShloMosaic.LastAxisRows

end
-- ==== Proof.KerRows.lean ====
/-
  Row statistics and re-laid pieces of the kernel's body, read at an index on the extended reals.

  A row's maximum and a row's sum are reductions along the last axis of a [128, 40, 40] block of scores; each is put
  back beside every entry of its row by a cast [128,40] → [128,40,1] followed by a broadcast along the unit axis.
  A head's 64 columns are a slice of the 128 projected columns at offset 0 or 64, and the two heads' outputs are
  laid side by side again by a concatenation along the last axis.
-/
import proofs.«127447_j10763188044027_1_alg».proof.Proof.Gen.KernelIdeal.Skeleton
import proofs.«127447_j10763188044027_1_alg».proof.Proof.Spec
import proofs.«127447_j10763188044027_1_alg».proof.Proof.LibLastAxisRows
import Idealize.ShloMosaic.Lib.Pipeline.Value
import Idealize.ShloMosaic.Lib.ValueIdx
import Idealize.ShloMosaic.PureOps.Ideal.Laws

noncomputable section

namespace Cert.Attn.Ker

open Idealize.ShloMosaic Idealize.ShloMosaic.ValueIdx Cert.KernelIdeal Cert.Attn

/-- A row statistic put back on its row: the cast to a unit last axis and the broadcast along it read, at
    (p, q, k), the statistic at (p, q). -/
theorem keep_row (R : FVec Ideal S128x40 .f32) (h1 : S128x40.ShapeCasts S128x40x1) (h2 : S128x40x1.Broadcasts S128x40x40)
    (p : Fin 128) (q k : Fin 40) :
    broadcastTo S128x40x40 (shapeCast S128x40x1 R h1) h2 (ix3 p q k) = R (ix2 p q) :=
  LastAxisRows.keepdims_last R h1 h2 p q k

/-- A row's maximum, started from −∞: the fold of `max` over the row's 40 entries. -/
theorem max_row (S : FVec Ideal S128x40x40 .f32) (h : S128x40x40.Reduces [2] S128x40) (hφ : FKind.Formats .f32)
    (hacc : (0xFF800000#32 : BitVec 32) = FKind.maximumf.neutral .f32 hφ) (p : Fin 128) (q : Fin 40) :
    multiReduction .maximumf [2] S128x40 S 0xFF800000#32 h hφ hacc (ix2 p q)
      = (Finset.univ : Finset (Fin 40)).fold max negInf (fun k => S (ix3 p q k)) :=
  LastAxisRows.multiReduction_maximumf_last S 0xFF800000#32 h hφ hacc p q

/-- A row's sum: the sum of the row's 40 entries. -/
theorem sum_row (E : FVec Ideal S128x40x40 .f32) (h : S128x40x40.Reduces [2] S128x40) (hφ : FKind.Formats .f32)
    (hacc : (0x00000000#32 : BitVec 32) = FKind.add.neutral .f32 hφ) (p : Fin 128) (q : Fin 40) :
    multiReduction .add [2] S128x40 E 0x00000000#32 h hφ hacc (ix2 p q) = ∑ k : Fin 40, E (ix3 p q k) :=
  LastAxisRows.multiReduction_add_last E 0x00000000#32 h hφ hacc p q

/-- Head `0`'s columns: the slice at offset 0 reads column `col 0 dd`. -/
theorem slice_head0 (V : FVec Ideal S128x40x128 .f32) (h : S128x40x128.Slices ![0, 0, 0] S128x40x64)
    (p : Fin 128) (f : Fin 40) (dd : Fin 64) :
    extractStridedSlice S128x40x64 ![0, 0, 0] V h (ix3 p f dd) = V (ix3 p f (col 0 dd)) := by
  refine extractStridedSlice_apply ![0, 0, 0] V h (ix3 p f dd) (ix3 p f (col 0 dd)) ?_
  intro a
  match a with
  | ⟨0, _⟩ => show p.val = 0 + p.val; omega
  | ⟨1, _⟩ => show f.val = 0 + f.val; omega
  | ⟨2, _⟩ => show (0 : Fin 2).val * 64 + dd.val = 0 + dd.val; simp

/-- Head `1`'s columns: the slice at offset 64 reads column `col 1 dd`. -/
theorem slice_head1 (V : FVec Ideal S128x40x128 .f32) (h : S128x40x128.Slices ![0, 0, 64] S128x40x64)
    (p : Fin 128) (f : Fin 40) (dd : Fin 64) :
    extractStridedSlice S128x40x64 ![0, 0, 64] V h (ix3 p f dd) = V (ix3 p f (col 1 dd)) := by
  refine extractStridedSlice_apply ![0, 0, 64] V h (ix3 p f dd) (ix3 p f (col 1 dd)) ?_
  intro a
  match a with
  | ⟨0, _⟩ => show p.val = 0 + p.val; omega
  | ⟨1, _⟩ => show f.val = 0 + f.val; omega
  | ⟨2, _⟩ => show (1 : Fin 2).val * 64 + dd.val = 64 + dd.val; simp

/-- The two heads' outputs side by side: column `col 0 dd` is the first piece's column `dd`. -/
theorem concat_head0 (O0 O1 : FVec Ideal S128x40x64 .f32) (h : Shape.Concatenates [S128x40x64, S128x40x64] S128x40x128 2)
    (p : Fin 128) (f : Fin 40) (dd : Fin 64) :
    concatenate S128x40x128 2 [⟨S128x40x64, O0⟩, ⟨S128x40x64, O1⟩] h (ix3 p f (col 0 dd)) = O0 (ix3 p f dd) := by
  refine concatenate_pair_apply_left 2 O0 O1 h (ix3 p f (col 0 dd)) rfl (ix3 p f dd) ?_
  intro b
  match b with
  | ⟨0, _⟩ => rfl
  | ⟨1, _⟩ => rfl
  | ⟨2, _⟩ => show dd.val = (0 : Fin 2).val * 64 + dd.val; simp

/-- … and column `col 1 dd` is the second piece's column `dd`. -/
theorem concat_head1 (O0 O1 : FVec Ideal S128x40x64 .f32) (h : Shape.Concatenates [S128x40x64, S128x40x64] S128x40x128 2)
    (p : Fin 128) (f : Fin 40) (dd : Fin 64) :
    concatenate S128x40x128 2 [⟨S128x40x64, O0⟩, ⟨S128x40x64, O1⟩] h (ix3 p f (col 1 dd)) = O1 (ix3 p f dd) := by
  refine concatenate_pair_apply_right 2 O0 O1 h (ix3 p f (col 1 dd)) rfl rfl (ix3 p f dd) ?_ ?_
  · intro b hb
    match b with
    | ⟨0, _⟩ => rfl
    | ⟨1, _⟩ => rfl
    | ⟨2, _⟩ => exact absurd rfl hb
  · show dd.val + 64 = (1 : Fin 2).val * 64 + dd.val
    simp; omega

end Cert.Attn.Ker

end
-- ==== Proof.KerHead.lean ====
/-
  One head and one projection on a block of 128 batch elements, as vector terms and at an index.

  The body computes, for each head, scores → row maximum → shifted exponentials → row sums → quotient → product with
  the value rows. Here that chain is written once as a vector term `headV` of the head's three column slices, with
  its stages named, and read at (p, q, dd) as the specification's `head` of batch element `p`'s rows. Likewise a
  projection `projV` — flatten the block's rows, multiply, restore the rows — is the specification's `proj` of batch
  element `p`'s rows.
-/
import proofs.«127447_j10763188044027_1_alg».proof.Proof.KerOps
import proofs.«127447_j10763188044027_1_alg».proof.Proof.KerRows

noncomputable section

namespace Cert.Attn.Ker

open Idealize.ShloMosaic Idealize.ShloMosaic.ValueIdx Cert.KernelIdeal Cert.KernelIdeal.Facts₀ Cert.Attn

variable (hφ : FKind.Formats .f32) (hm : (0xFF800000#32 : BitVec 32) = FKind.maximumf.neutral .f32 hφ)
  (ha : (0x00000000#32 : BitVec 32) = FKind.add.neutral .f32 hφ)

/-! ## The softmax of a block of scores -/

/-- Every row's maximum (compared once more with −∞, as the body does). -/
def rowMaxV (S : FVec Ideal S128x40x40 .f32) : FVec Ideal S128x40 .f32 :=
  maximumf (broadcast S128x40 (Scalar.ofBits .f32 0xFF800000#32))
    (multiReduction .maximumf [2] S128x40 S 0xFF800000#32 reduces_S128x40x40_S128x40 hφ hm)

/-- The exponentials of the scores less their row's maximum. -/
def expV (S : FVec Ideal S128x40x40 .f32) : FVec Ideal S128x40x40 .f32 :=
  exp (subf S (broadcastTo S128x40x40 (shapeCast S128x40x1 (rowMaxV hφ hm S) shapeCasts_S128x40_S128x40x1) broadcasts_S128x40x1_S128x40x40))

/-- The exponentials over their row's sum. -/
def softV (S : FVec Ideal S128x40x40 .f32) : FVec Ideal S128x40x40 .f32 :=
  divf (expV hφ hm S) (broadcastTo S128x40x40 (shapeCast S128x40x1
    (multiReduction .add [2] S128x40 (expV hφ hm S) 0x00000000#32 reduces_S128x40x40_S128x40 hφ ha) shapeCasts_S128x40_S128x40x1) broadcasts_S128x40x1_S128x40x40)

/-- One head of the block: the softmax of the scores of `A` against `B`, times `C`. -/
def headV (A B C : FVec Ideal S128x40x64 .bf16) : FVec Ideal S128x40x64 .f32 :=
  matmul DAV none (truncf .bf16 (softV hφ hm ha (matmul DQK none A B (constant S128x40x40 .f32 0x00000000#32))) bitsLt_bf16_f32) C
    (constant S128x40x64 .f32 0x00000000#32)

theorem rowMaxV_apply (S : FVec Ideal S128x40x40 .f32) (p : Fin 128) (q : Fin 40) :
    rowMaxV hφ hm S (ix2 p q) = rowMax (fun k => S (ix3 p q k)) := by
  unfold rowMaxV rowMax
  show max negInf (multiReduction .maximumf [2] S128x40 S 0xFF800000#32 reduces_S128x40x40_S128x40 hφ hm (ix2 p q)) = _
  rw [max_row]

theorem expV_apply (S : FVec Ideal S128x40x40 .f32) (p : Fin 128) (q k : Fin 40) :
    expV hφ hm S (ix3 p q k) = rowExp (fun k => S (ix3 p q k)) k := by
  unfold expV rowExp
  show Ideal.exp (S (ix3 p q k) - broadcastTo S128x40x40 (shapeCast S128x40x1 (rowMaxV hφ hm S) shapeCasts_S128x40_S128x40x1) broadcasts_S128x40x1_S128x40x40 (ix3 p q k)) = _
  rw [keep_row, rowMaxV_apply]

theorem softV_apply (S : FVec Ideal S128x40x40 .f32) (p : Fin 128) (q k : Fin 40) :
    softV hφ hm ha S (ix3 p q k) = softmax (fun k => S (ix3 p q k)) k := by
  unfold softV softmax
  show Ideal.div (expV hφ hm S (ix3 p q k)) (broadcastTo S128x40x40 (shapeCast S128x40x1
    (multiReduction .add [2] S128x40 (expV hφ hm S) 0x00000000#32 reduces_S128x40x40_S128x40 hφ ha) shapeCasts_S128x40_S128x40x1) broadcasts_S128x40x1_S128x40x40 (ix3 p q k)) = _
  rw [keep_row, sum_row, expV_apply]
  exact congrArg (Ideal.div _) (Finset.sum_congr rfl fun k' _ => expV_apply hφ hm S p q k')

/-- The head at batch element `p`, row `q`, column `dd` is the specification's head of that batch element's rows. -/
theorem headV_apply (A B C : FVec Ideal S128x40x64 .bf16) (p : Fin 128) (q : Fin 40) (dd : Fin 64) :
    headV hφ hm ha A B C (ix3 p q dd)
      = head (fun q dd => A (ix3 p q dd)) (fun k dd => B (ix3 p k dd)) (fun k dd => C (ix3 p k dd)) q dd := by
  unfold headV head
  rw [mm_out]
  refine Finset.sum_congr rfl fun k _ => ?_
  show softV hφ hm ha (matmul DQK none A B (constant S128x40x40 .f32 0x00000000#32)) (ix3 p q k) * C (ix3 p k dd) = _
  rw [softV_apply]
  have hs : (fun k => matmul DQK none A B (constant S128x40x40 .f32 0x00000000#32) (ix3 p q k))
      = score (fun q dd => A (ix3 p q dd)) (fun k dd => B (ix3 p k dd)) q := funext fun k => mm_scores A B p q k
  rw [hs]

/-! ## A projection of the block -/

/-- Flatten the block's rows, multiply by the matrix, restore the rows. -/
def projV (X : Vec Ideal S128x40x128 .f32) (W : Vec Ideal S128x128 .f32) : FVec Ideal S128x40x128 .f32 :=
  shapeCast S128x40x128 (matmul DP none (truncf .bf16 (shapeCast S5120x128 X shapeCasts_S128x40x128_S5120x128) bitsLt_bf16_f32)
    (truncf .bf16 W bitsLt_bf16_f32) (constant S5120x128 .f32 0x00000000#32)) shapeCasts_S5120x128_S128x40x128

/-- The projection at batch element `p`, row `f`, column `d` is the specification's projection of that batch
    element's rows. -/
theorem projV_apply (X : Vec Ideal S128x40x128 .f32) (W : Vec Ideal S128x128 .f32) (p : Fin 128) (f : Fin 40) (d : Fin 128) :
    projV X W (ix3 p f d) = proj (fun f e => X (ix3 p f e)) (fun e d => W (ix2 e d)) f d := by
  unfold projV proj
  have hr : p.val * 40 + f.val < 5120 := by have := p.isLt; have := f.isLt; omega
  refine (shapeCast_apply _ shapeCasts_S5120x128_S128x40x128 (ix3 p f d) (ix2 (⟨p.val * 40 + f.val, hr⟩ : Fin 5120) d) ?_).trans ?_
  · rw [Shape.rowMajor_val_two, Shape.rowMajor_val_three]; rfl
  · rw [mm_proj]
    refine Finset.sum_congr rfl fun e _ => ?_
    show shapeCast S5120x128 X shapeCasts_S128x40x128_S5120x128 (ix2 (⟨p.val * 40 + f.val, hr⟩ : Fin 5120) e) * W (ix2 e d) = X (ix3 p f e) * W (ix2 e d)
    rw [shapeCast_apply X shapeCasts_S128x40x128_S5120x128 (ix2 (⟨p.val * 40 + f.val, hr⟩ : Fin 5120) e) (ix3 p f e)
      (by rw [Shape.rowMajor_val_three, Shape.rowMajor_val_two]; rfl)]

end Cert.Attn.Ker

end
-- ==== Proof.KerPay.lean ====
/-
  What the body stores for one block of 128 batch elements, at an index.

  The body's stored value is a term of the five loaded blocks: four projections of the block's rows; head 0 computed
  from the first 64 columns of the query, key and value projections, head 1 from the last 64; the two heads laid side
  by side, the residual projection added, the result clipped below at zero. Read at batch element `p`, row `q`,
  column `d`, it is the specification's `attn` of batch element `p`'s rows at row `q`, head `d / 64`, position `d % 64`.
-/
import proofs.«127447_j10763188044027_1_alg».proof.Proof.KerHead

noncomputable section

namespace Cert.Attn.Ker

open Idealize.ShloMosaic Idealize.ShloMosaic.ValueIdx Cert.KernelIdeal Cert.KernelIdeal.Facts₀ Cert.Attn

/-- Batch element `p` of a block, as a 40 × 128 matrix. -/
abbrev rowsOf (X : Vec Ideal S128x40x128 .f32) (p : Fin 128) : Fin 40 → Fin 128 → EReal := fun f e => X (ix3 p f e)
/-- A loaded weight block as a 128 × 128 matrix. -/
abbrev matOf (W : Vec Ideal S128x128 .f32) : Fin 128 → Fin 128 → EReal := fun e d => W (ix2 e d)

/-- The value the body stores, as a term of the five loaded blocks. -/
def blockOut (X : Vec Ideal S128x40x128 .f32) (W1 W2 W3 W4 : Vec Ideal S128x128 .f32) : FVec Ideal S128x40x128 .f32 :=
  Gen.k0_pay1 (Gen.k0_pay3 X W1) (Gen.k0_pay4 X W2) (Gen.k0_pay5 X W3) (Gen.k0_pay6 X W4) (Gen.k0_pay7 X W1 W2 W3)

/-- Head 0's slice of a projection (the change of float format is the identity on the extended reals). -/
abbrev sl0 (V : FVec Ideal S128x40x128 .f32) : FVec Ideal S128x40x64 .bf16 :=
  truncf .bf16 (extractStridedSlice S128x40x64 ![0, 0, 0] V slices_S128x40x128_o0_0_0_S128x40x64) bitsLt_bf16_f32
/-- Head 1's slice of a projection. -/
abbrev sl1 (V : FVec Ideal S128x40x128 .f32) : FVec Ideal S128x40x64 .bf16 :=
  truncf .bf16 (extractStridedSlice S128x40x64 ![0, 0, 64] V slices_S128x40x128_o0_0_64_S128x40x64) bitsLt_bf16_f32

theorem pay3_eq (X : Vec Ideal S128x40x128 .f32) (W : Vec Ideal S128x128 .f32) : Gen.k0_pay3 (F := Ideal) X W = projV X W := rfl
theorem pay4_eq (X : Vec Ideal S128x40x128 .f32) (W : Vec Ideal S128x128 .f32) : Gen.k0_pay4 (F := Ideal) X W = projV X W := rfl
theorem pay5_eq (X : Vec Ideal S128x40x128 .f32) (W : Vec Ideal S128x128 .f32) : Gen.k0_pay5 (F := Ideal) X W = projV X W := rfl
theorem pay6_eq (X : Vec Ideal S128x40x128 .f32) (W : Vec Ideal S128x128 .f32) : Gen.k0_pay6 (F := Ideal) X W = projV X W := rfl

/-- Head 0 of the body is `headV` of the first-half slices of the three projections. -/
theorem pay7_eq (X : Vec Ideal S128x40x128 .f32) (W1 W2 W3 : Vec Ideal S128x128 .f32) :
    Gen.k0_pay7 (F := Ideal) X W1 W2 W3 = headV (.inl rfl) rfl rfl (sl0 (projV X W1)) (sl0 (projV X W2)) (sl0 (projV X W3)) := rfl

/-- The stored value: head 1 is `headV` of the second-half slices; the heads side by side plus the residual, clipped. -/
theorem pay1_eq (v12 v14 v16 v18 : FVec Ideal S128x40x128 .f32) (v38 : FVec Ideal S128x40x64 .f32) :
    Gen.k0_pay1 (F := Ideal) v12 v14 v16 v18 v38
      = maximumf (addf (concatenate S128x40x128 2 [⟨S128x40x64, v38⟩, ⟨S128x40x64, headV (.inl rfl) rfl rfl (sl1 v12) (sl1 v14) (sl1 v16)⟩]
          concatenates_S128x40x64_S128x40x64_S128x40x128_d2) v18) (broadcast S128x40x128 (Scalar.ofBits .f32 0x00000000#32)) := rfl

/-- Head 0's columns of a projection of batch element `p`. -/
theorem sl0_rows (X : Vec Ideal S128x40x128 .f32) (W : Vec Ideal S128x128 .f32) (p : Fin 128) :
    (fun (f : Fin 40) (c : Fin 64) => sl0 (projV X W) (ix3 p f c)) = fun f c => proj (rowsOf X p) (matOf W) f (col 0 c) :=
  funext fun f => funext fun c => by
    show extractStridedSlice S128x40x64 ![0, 0, 0] (projV X W) slices_S128x40x128_o0_0_0_S128x40x64 (ix3 p f c) = _
    rw [slice_head0, projV_apply]

/-- Head 1's columns of a projection of batch element `p`. -/
theorem sl1_rows (X : Vec Ideal S128x40x128 .f32) (W : Vec Ideal S128x128 .f32) (p : Fin 128) :
    (fun (f : Fin 40) (c : Fin 64) => sl1 (projV X W) (ix3 p f c)) = fun f c => proj (rowsOf X p) (matOf W) f (col 1 c) :=
  funext fun f => funext fun c => by
    show extractStridedSlice S128x40x64 ![0, 0, 64] (projV X W) slices_S128x40x128_o0_0_64_S128x40x64 (ix3 p f c) = _
    rw [slice_head1, projV_apply]

/-- The stored value at a column of head 0. -/
theorem blockOut_head0 (X : Vec Ideal S128x40x128 .f32) (W1 W2 W3 W4 : Vec Ideal S128x128 .f32) (p : Fin 128) (q : Fin 40) (dd : Fin 64) :
    blockOut X W1 W2 W3 W4 (ix3 p q (col 0 dd)) = attn (rowsOf X p) (matOf W1) (matOf W2) (matOf W3) (matOf W4) q 0 dd := by
  unfold blockOut
  rw [pay1_eq, pay7_eq, pay3_eq, pay4_eq, pay5_eq, pay6_eq]
  show max (concatenate S128x40x128 2 [⟨S128x40x64, headV (.inl rfl) rfl rfl (sl0 (projV X W1)) (sl0 (projV X W2)) (sl0 (projV X W3))⟩,
      ⟨S128x40x64, headV (.inl rfl) rfl rfl (sl1 (projV X W1)) (sl1 (projV X W2)) (sl1 (projV X W3))⟩]
      concatenates_S128x40x64_S128x40x64_S128x40x128_d2 (ix3 p q (col 0 dd)) + projV X W4 (ix3 p q (col 0 dd))) zeroW = _
  have hH := headV_apply (.inl rfl) rfl rfl (sl0 (projV X W1)) (sl0 (projV X W2)) (sl0 (projV X W3)) p q dd
  rw [sl0_rows, sl0_rows, sl0_rows] at hH
  rw [concat_head0, projV_apply]
  exact congrArg (fun z => max (z + proj (rowsOf X p) (matOf W4) q (col 0 dd)) zeroW) hH

/-- The stored value at a column of head 1. -/
theorem blockOut_head1 (X : Vec Ideal S128x40x128 .f32) (W1 W2 W3 W4 : Vec Ideal S128x128 .f32) (p : Fin 128) (q : Fin 40) (dd : Fin 64) :
    blockOut X W1 W2 W3 W4 (ix3 p q (col 1 dd)) = attn (rowsOf X p) (matOf W1) (matOf W2) (matOf W3) (matOf W4) q 1 dd := by
  unfold blockOut
  rw [pay1_eq, pay7_eq, pay3_eq, pay4_eq, pay5_eq, pay6_eq]
  show max (concatenate S128x40x128 2 [⟨S128x40x64, headV (.inl rfl) rfl rfl (sl0 (projV X W1)) (sl0 (projV X W2)) (sl0 (projV X W3))⟩,
      ⟨S128x40x64, headV (.inl rfl) rfl rfl (sl1 (projV X W1)) (sl1 (projV X W2)) (sl1 (projV X W3))⟩]
      concatenates_S128x40x64_S128x40x64_S128x40x128_d2 (ix3 p q (col 1 dd)) + projV X W4 (ix3 p q (col 1 dd))) zeroW = _
  have hH := headV_apply (.inl rfl) rfl rfl (sl1 (projV X W1)) (sl1 (projV X W2)) (sl1 (projV X W3)) p q dd
  rw [sl1_rows, sl1_rows, sl1_rows] at hH
  rw [concat_head1, projV_apply]
  exact congrArg (fun z => max (z + proj (rowsOf X p) (matOf W4) q (col 1 dd)) zeroW) hH

/-- THE STORED VALUE at batch element `p`, row `q`, column `d`: the specification's `attn` of that batch element's rows,
    at the head and the position of column `d`. -/
theorem blockOut_apply (X : Vec Ideal S128x40x128 .f32) (W1 W2 W3 W4 : Vec Ideal S128x128 .f32) (p : Fin 128) (q : Fin 40) (d : Fin 128) :
    blockOut X W1 W2 W3 W4 (ix3 p q d) = attn (rowsOf X p) (matOf W1) (matOf W2) (matOf W3) (matOf W4) q (hd d) (off d) := by
  have hcol : ∀ (h : Fin 2) (dd : Fin 64), blockOut X W1 W2 W3 W4 (ix3 p q (col h dd))
      = attn (rowsOf X p) (matOf W1) (matOf W2) (matOf W3) (matOf W4) q h dd := fun h dd =>
    match h with
    | ⟨0, _⟩ => blockOut_head0 X W1 W2 W3 W4 p q dd
    | ⟨1, _⟩ => blockOut_head1 X W1 W2 W3 W4 p q dd
  have := hcol (hd d) (off d)
  rwa [col_hd_off] at this

end Cert.Attn.Ker

end
-- ==== Proof.KerArray.lean ====
/-
  From the kernel's blocks to its whole result array.

  The grid has 128 points; point `t` works on the block of 128 consecutive batch elements `128 t … 128 t + 127` of
  the input and writes the same block of the result, and the four weight windows' blocks are the whole matrices at
  every point. The value a point stores, read at batch element `p` of its block, is the specification's `attn` of
  that batch element's rows; so each point writes its block of the one whole-array function `G` of the argument
  arrays, the 128 blocks cover the array, and the result array after the run is `G` of the arguments.
-/
import proofs.«127447_j10763188044027_1_alg».proof.Proof.Gen.KernelIdeal.Value
import proofs.«127447_j10763188044027_1_alg».proof.Proof.KerPay
import Idealize.ShloMosaic.Lib.Pipeline.Value
import Idealize.ShloMosaic.Lib.ValueIdx

noncomputable section

namespace Cert.Attn.Arr

open Cert.KernelIdeal Cert.KernelIdeal.Gen Idealize.ShloMosaic Idealize.ShloMosaic.TcCoe Idealize.SL.Sem
open Idealize.ShloMosaic.ValueIdx Cert.Attn Cert.Attn.Ker
open Idealize.ShloMosaic.Pipeline (Dat)

variable (m : (ℓ : Loc nD τ sig) → Buf (Elt Ideal) ℓ) (ρ : Dev nD → PrngReg)

/-! ## What a point stores -/

theorem zero3 : (![0, 0, 0] : Fin 3 → Nat) = fun _ => 0 := funext fun a => by fin_cases a <;> rfl
theorem zero2 : (![0, 0] : Fin 2 → Nat) = fun _ => 0 := funext fun a => by fin_cases a <;> rfl

/-- The one store covers the whole staging buffer from offset zero and the loads read whole blocks, so what the body
    leaves in the output's buffer is the stored value of the five blocks. -/
theorem out_eq (x0 : Vec Ideal S128x40x128 .f32) (x1 x2 x3 x4 : Vec Ideal S128x128 .f32) :
    out0_5 (F := Ideal) x0 x1 x2 x3 x4 = blockOut x0 x1 x2 x3 x4 := by
  unfold out0_5
  rw [View.canon_unit_zero zero3]
  simp only [View.ld_unit_zero (S := S128x40x128) zero3, View.ld_unit_zero (S := S128x128) zero2]
  rfl

/-! ## The index maps over the grid -/

/-- The printed index maps, decided over the 128 grid points: the input's block moves with the result's block along
    the batch axis and both sit at block 0 on the other two axes; the weights' blocks are block (0, 0); the result's
    block index on the batch axis is at most 127. -/
theorem idx_facts : ∀ t : Fin cfg0.N,
    win0_0.index t (0 : Fin 3) = win0_5.index t (0 : Fin 3)
    ∧ win0_0.index t (1 : Fin 3) = 0 ∧ win0_0.index t (2 : Fin 3) = 0
    ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 127 :=
  (by decide +kernel : ∀ t : Fin grid0.N, _)

/-- Every block of 128 batch elements is some point's. -/
theorem idx_onto : ∀ q0 : Fin 128, ∃ t : Fin cfg0.N, win0_5.index t = ![q0.val, 0, 0] :=
  (by decide +kernel : ∀ q0 : Fin 128, ∃ t : Fin grid0.N, win0_5.index t = ![q0.val, 0, 0])

/-! ## What a point writes back -/

/-- The specification's `G` at an index with coordinates (b, q, d). -/
theorem G_at (x : S16384x40x128.Idx → EReal) (wq wk wv wr : S128x128.Idx → EReal) (i : S16384x40x128.Idx)
    (b : Fin 16384) (q : Fin 40) (d : Fin 128) (h0 : (i 0).val = b.val) (h1 : (i 1).val = q.val) (h2 : (i 2).val = d.val) :
    G x wq wk wv wr i = attn (fun f e => x (ix3 b f e)) (fun e d => wq (ix2 e d)) (fun e d => wk (ix2 e d))
      (fun e d => wv (ix2 e d)) (fun e d => wr (ix2 e d)) q (hd d) (off d) := by
  obtain rfl : i = ix3 b q d := funext fun a => Fin.ext (by
    match a with
    | ⟨0, _⟩ => exact h0
    | ⟨1, _⟩ => exact h1
    | ⟨2, _⟩ => exact h2)
  rfl

/-- WHAT POINT `t` WRITES BACK is block `t` of `G` of the argument arrays as the region finds them: batch element `p`
    of the input's block is batch element `128 t + p` of the input, and each weight block is the whole matrix. -/
theorem flushed_eq (c : Dev nD) (t : Fin cfg0.N) :
    (dats m 0 c).flushed 5 t = ((cfg0.win 5).blk t).view.read (Elt Ideal)
      (G (V m c main_arg0) (V m c main_arg1) (V m c main_arg2) (V m c main_arg3) (V m c main_arg4)) := by
  obtain ⟨e00, e01, e02, e51, e52, e10, e11, e20, e21, e30, e31, e40, e41, e5le⟩ := idx_facts t
  rw [Cert.KernelIdeal.Value.flushed5]
  funext j
  obtain ⟨p, q, d, rfl⟩ : ∃ (p : Fin 128) (q : Fin 40) (d : Fin 128), j = ix3 p q d := ⟨j 0, j 1, j 2, eq_ix3 j⟩
  have hp : p.val < 128 := p.isLt
  have hq : q.val < 40 := q.isLt
  have hd' : d.val < 128 := d.isLt
  show out0_5 (F := Ideal) (iblk m c 0 t) (iblk m c 1 t) (iblk m c 2 t) (iblk m c 3 t) (iblk m c 4 t) (ix3 p q d)
    = G (V m c main_arg0) (V m c main_arg1) (V m c main_arg2) (V m c main_arg3) (V m c main_arg4)
        (((cfg0.win 5).blk t).view.emb (ix3 p q d))
  refine (congrFun (out_eq (iblk m c 0 t) (iblk m c 1 t) (iblk m c 2 t) (iblk m c 3 t) (iblk m c 4 t)) (ix3 p q d)).trans ?_
  refine (blockOut_apply (iblk m c 0 t) (iblk m c 1 t) (iblk m c 2 t) (iblk m c 3 t) (iblk m c 4 t) p q d).trans ?_
  refine Eq.trans ?_ (G_at (V m c main_arg0) (V m c main_arg1) (V m c main_arg2) (V m c main_arg3) (V m c main_arg4)
    (((cfg0.win 5).blk t).view.emb (ix3 p q d)) ⟨win0_5.index t (0 : Fin 3) * 128 + p.val, by omega⟩ q d ?_ ?_ ?_).symm
  · have hX : rowsOf (iblk m c 0 t) p
        = fun f e => V m c main_arg0 (ix3 (⟨win0_5.index t (0 : Fin 3) * 128 + p.val, by omega⟩ : Fin 16384) f e) :=
      funext fun f => funext fun e => by
        show V m c main_arg0 (((cfg0.win 0).blk t).view.emb (ix3 p f e)) = V m c main_arg0 _
        refine congrArg (V m c main_arg0) (funext fun a => Fin.ext ?_)
        have hf : f.val < 40 := f.isLt
        have he : e.val < 128 := e.isLt
        match a with
        | ⟨0, _⟩ => show win0_0.index t (0 : Fin 3) * 128 + 1 * p.val = win0_5.index t (0 : Fin 3) * 128 + p.val; omega
        | ⟨1, _⟩ => show win0_0.index t (1 : Fin 3) * 40 + 1 * f.val = f.val; omega
        | ⟨2, _⟩ => show win0_0.index t (2 : Fin 3) * 128 + 1 * e.val = e.val; omega
    have hW1 : matOf (iblk m c 1 t) = fun e d => V m c main_arg1 (ix2 e d) :=
      funext fun e => funext fun d => by
        show V m c main_arg1 (((cfg0.win 1).blk t).view.emb (ix2 e d)) = V m c main_arg1 _
        refine congrArg (V m c main_arg1) (funext fun a => Fin.ext ?_)
        match a with
        | ⟨0, _⟩ => show win0_1.index t (0 : Fin 2) * 128 + 1 * e.val = e.val; omega
        | ⟨1, _⟩ => show win0_1.index t (1 : Fin 2) * 128 + 1 * d.val = d.val; omega
    have hW2 : matOf (iblk m c 2 t) = fun e d => V m c main_arg2 (ix2 e d) :=
      funext fun e => funext fun d => by
        show V m c main_arg2 (((cfg0.win 2).blk t).view.emb (ix2 e d)) = V m c main_arg2 _
        refine congrArg (V m c main_arg2) (funext fun a => Fin.ext ?_)
        match a with
        | ⟨0, _⟩ => show win0_2.index t (0 : Fin 2) * 128 + 1 * e.val = e.val; omega
        | ⟨1, _⟩ => show win0_2.index t (1 : Fin 2) * 128 + 1 * d.val = d.val; omega
    have hW3 : matOf (iblk m c 3 t) = fun e d => V m c main_arg3 (ix2 e d) :=
      funext fun e => funext fun d => by
        show V m c main_arg3 (((cfg0.win 3).blk t).view.emb (ix2 e d)) = V m c main_arg3 _
        refine congrArg (V m c main_arg3) (funext fun a => Fin.ext ?_)
        match a with
        | ⟨0, _⟩ => show win0_3.index t (0 : Fin 2) * 128 + 1 * e.val = e.val; omega
        | ⟨1, _⟩ => show win0_3.index t (1 : Fin 2) * 128 + 1 * d.val = d.val; omega
    have hW4 : matOf (iblk m c 4 t) = fun e d => V m c main_arg4 (ix2 e d) :=
      funext fun e => funext fun d => by
        show V m c main_arg4 (((cfg0.win 4).blk t).view.emb (ix2 e d)) = V m c main_arg4 _
        refine congrArg (V m c main_arg4) (funext fun a => Fin.ext ?_)
        match a with
        | ⟨0, _⟩ => show win0_4.index t (0 : Fin 2) * 128 + 1 * e.val = e.val; omega
        | ⟨1, _⟩ => show win0_4.index t (1 : Fin 2) * 128 + 1 * d.val = d.val; omega
    rw [hX, hW1, hW2, hW3, hW4]
  · show win0_5.index t (0 : Fin 3) * 128 + 1 * p.val = win0_5.index t (0 : Fin 3) * 128 + p.val; omega
  · show win0_5.index t (1 : Fin 3) * 40 + 1 * q.val = q.val; omega
  · show win0_5.index t (2 : Fin 3) * 128 + 1 * d.val = d.val; omega

/-! ## The blocks cover the array -/

/-- An index of the array is in point `t`'s block iff each coordinate is in the block's range on its axis. -/
theorem mem_blk (t : Fin cfg0.N) (i : S16384x40x128.Idx) :
    i ∈ ((cfg0.win 5).blk t).view.set ↔ ∀ a : Fin 3, win0_5.index t a * S128x40x128.size a ≤ (i a).val
      ∧ (i a).val < win0_5.index t a * S128x40x128.size a + S128x40x128.size a := by
  show i ∈ ((View.whole main_v0).slice (win0_5.rect t)).set ↔ _
  rw [View.set_slice_whole, Rect.mem_set_unit]
  exact Iff.rfl

/-- Batch element `b` lies in the block of the point whose block index is `b / 128`; every point writes back. -/
theorem cover (i : S16384x40x128.Idx) :
    ∃ t : Fin cfg0.N, (cfg0.win 5).flush t = true ∧ i ∈ ((cfg0.win 5).blk t).view.set := by
  have hi0 : (i 0).val < 16384 := (i 0).isLt
  have hi1 : (i 1).val < 40 := (i 1).isLt
  have hi2 : (i 2).val < 128 := (i 2).isLt
  obtain ⟨t, ht⟩ := idx_onto ⟨(i 0).val / 128, by omega⟩
  have q0 : win0_5.index t (0 : Fin 3) = (i 0).val / 128 := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 128 ≤ (i 0).val ∧ (i 0).val < win0_5.index t (0 : Fin 3) * 128 + 128; omega
  | ⟨1, _⟩ => show win0_5.index t (1 : Fin 3) * 40 ≤ (i 1).val ∧ (i 1).val < win0_5.index t (1 : Fin 3) * 40 + 40; omega
  | ⟨2, _⟩ => show win0_5.index t (2 : Fin 3) * 128 ≤ (i 2).val ∧ (i 2).val < win0_5.index t (2 : Fin 3) * 128 + 128; omega

/-! ## The result array, and the run -/

/-- THE RESULT ARRAY after the run is `G` of the argument arrays as launched. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5
    (G (V m c main_arg0) (V m c main_arg1) (V m c main_arg2) (V m c main_arg3) (V m c main_arg4))
    (fun t _ => flushed_eq m c t) cover

/-- The kernel's run, read: the result array is `G` of the five argument arrays, and the arguments are unchanged. -/
theorem run : θ_run Cert.KernelIdeal.defs (onTc (τ := τ) (Cert.KernelIdeal.main (F := Ideal))) ⟨m, fun _ => 0, ρ⟩ fun r => ∀ c : Dev nD,
      r.2.mem ((c : Thread nD τ).loc main_v0) = Cert.Attn.G (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run Cert.KernelIdeal.defs _ _).mono (fun r h c => ⟨(h c).1.trans (final m c), (h c).2⟩)
    (Cert.KernelIdeal.Value.run_blocks m ρ)

end Cert.Attn.Arr

end
-- ==== Proof.RefValue.lean ====
/-
  The reference program, read index by index, is the specification's function `G`.

  Each stage of the reference is read at explicit coordinates (head `h`, batch element `b`, rows `q k f`, column
  `dd` inside a head, column `d` among the 128): the projections are `proj`, the scores `score`, the row maximum
  `rowMax`, the shifted exponentials `rowExp`, their normalisation `softmax`, the weighted sum of the value rows
  `head`, and the last stage (residual added, clipped below at zero) is `attn`.
-/
import proofs.«127447_j10763188044027_1_alg».proof.Proof.Gen.ReferenceIdeal.Read
import proofs.«127447_j10763188044027_1_alg».proof.Proof.Spec
import Idealize.ShloMosaic.Lib.ValueIdx
import Idealize.ShloMosaic.PureOps.Ideal.Laws
import Idealize.ShloMosaic.PureOps.Reduce

noncomputable section

namespace Cert.Attn.Ref

open Cert.ReferenceIdeal Cert.ReferenceIdeal.Gen Cert.ReferenceIdeal.Read Idealize.ShloMosaic Idealize.ShloMosaic.ValueIdx Cert.Attn

/-- The arrays of the reference at the ideal values. -/
abbrev XArr := (⟨S16384x40x128, .f32⟩ : BufTy).Contents (Elt Ideal)
/-- A weight matrix of the reference at the ideal values. -/
abbrev WArr := (⟨S128x128, .f32⟩ : BufTy).Contents (Elt Ideal)

/-- Batch element `b` of the input as a 40 × 128 matrix. -/
abbrev rows (x0 : XArr) (b : Fin 16384) : Fin 40 → Fin 128 → EReal := fun f e => x0 (ix3 b f e)
/-- A weight array as a 128 × 128 matrix. -/
abbrev mat (w : WArr) : Fin 128 → Fin 128 → EReal := fun e d => w (ix2 e d)

/-! ## Index arithmetic of the layout stages -/

/-- The transpose [2,0,1,3] reads (h, b, f, dd) at (b, f, h, dd). -/
theorem idx_v2 (h : Fin 2) (b : Fin 16384) (f : Fin 40) (dd : Fin 64) :
    idx_main_v2 (ix4 h b f dd) = ix4 b f h dd :=
  funext fun a => Fin.ext (by match a with | ⟨0, _⟩ => rfl | ⟨1, _⟩ => rfl | ⟨2, _⟩ => rfl | ⟨3, _⟩ => rfl)

/-- The reshape 128 → 2 × 64 reads (b, f, h, dd) at column `64 h + dd`. -/
theorem idx_v1 (b : Fin 16384) (f : Fin 40) (h : Fin 2) (dd : Fin 64) :
    idx_main_v1 (ix4 b f h dd) = ix3 b f (col h dd) :=
  funext fun a => Fin.ext (by
    have hb := b.isLt; have hf := f.isLt; have hh := h.isLt; have hd := dd.isLt
    match a with
    | ⟨0, _⟩ => show (((b.val * 40 + f.val) * 2 + h.val) * 64 + dd.val) / 5120 = b.val; omega
    | ⟨1, _⟩ => show (((b.val * 40 + f.val) * 2 + h.val) * 64 + dd.val) / 128 % 40 = f.val; omega
    | ⟨2, _⟩ => show (((b.val * 40 + f.val) * 2 + h.val) * 64 + dd.val) % 128 = h.val * 64 + dd.val; omega)

/-- The left operand of a projection at (b, f, d), term `e`: the input at (b, f, e). -/
theorem lidx_v0 (b : Fin 16384) (f : Fin 40) (d e : Fin 128) : lidx_main_v0 (ix3 b f d) e = ix3 b f e :=
  funext fun a => Fin.ext (by match a with | ⟨0, _⟩ => rfl | ⟨1, _⟩ => rfl | ⟨2, _⟩ => rfl)

/-- The right operand of a projection at (b, f, d), term `e`: the weight at (e, d). -/
theorem ridx_v0 (b : Fin 16384) (f : Fin 40) (d e : Fin 128) : ridx_main_v0 (ix3 b f d) e = ix2 e d :=
  funext fun a => Fin.ext (by match a with | ⟨0, _⟩ => rfl | ⟨1, _⟩ => rfl)

/-! ## The four projections -/

/-- A projection read at (b, f, d). -/
theorem v0_apply (x0 : XArr) (w : WArr) (b : Fin 16384) (f : Fin 40) (d : Fin 128) :
    val_main_v0 (F := Ideal) x0 w (ix3 b f d) = proj (rows x0 b) (mat w) f d := by
  rw [val_main_v0_apply]
  unfold proj
  refine Finset.sum_congr rfl fun e _ => ?_
  rw [lidx_v0, ridx_v0]

/-- The query projection, split in heads, at (h, b, f, dd). -/
theorem v2_apply (x0 : XArr) (x1 : WArr) (h : Fin 2) (b : Fin 16384) (f : Fin 40) (dd : Fin 64) :
    val_main_v2 (F := Ideal) x0 x1 (ix4 h b f dd) = proj (rows x0 b) (mat x1) f (col h dd) := by
  rw [val_main_v2_apply, val_main_v1_apply, idx_v2, idx_v1, v0_apply]

/-- The key projection read at (b, f, d). -/
theorem v3_apply (x0 : XArr) (w : WArr) (b : Fin 16384) (f : Fin 40) (d : Fin 128) :
    val_main_v3 (F := Ideal) x0 w (ix3 b f d) = proj (rows x0 b) (mat w) f d := v0_apply x0 w b f d

/-- The value projection read at (b, f, d). -/
theorem v6_apply (x0 : XArr) (w : WArr) (b : Fin 16384) (f : Fin 40) (d : Fin 128) :
    val_main_v6 (F := Ideal) x0 w (ix3 b f d) = proj (rows x0 b) (mat w) f d := v0_apply x0 w b f d

/-- The residual projection read at (b, f, d). -/
theorem v24_apply (x0 : XArr) (w : WArr) (b : Fin 16384) (f : Fin 40) (d : Fin 128) :
    val_main_v24 (F := Ideal) x0 w (ix3 b f d) = proj (rows x0 b) (mat w) f d := v0_apply x0 w b f d

/-- The key projection, split in heads, at (h, b, f, dd). -/
theorem v5_apply (x0 : XArr) (x2 : WArr) (h : Fin 2) (b : Fin 16384) (f : Fin 40) (dd : Fin 64) :
    val_main_v5 (F := Ideal) x0 x2 (ix4 h b f dd) = proj (rows x0 b) (mat x2) f (col h dd) := by
  rw [val_main_v5_apply, val_main_v4_apply, show idx_main_v5 (ix4 h b f dd) = ix4 b f h dd from idx_v2 h b f dd,
    show idx_main_v4 (ix4 b f h dd) = ix3 b f (col h dd) from idx_v1 b f h dd, v3_apply]

/-- The value projection, split in heads, at (h, b, f, dd). -/
theorem v8_apply (x0 : XArr) (x3 : WArr) (h : Fin 2) (b : Fin 16384) (f : Fin 40) (dd : Fin 64) :
    val_main_v8 (F := Ideal) x0 x3 (ix4 h b f dd) = proj (rows x0 b) (mat x3) f (col h dd) := by
  rw [val_main_v8_apply, val_main_v7_apply, show idx_main_v8 (ix4 h b f dd) = ix4 b f h dd from idx_v2 h b f dd,
    show idx_main_v7 (ix4 b f h dd) = ix3 b f (col h dd) from idx_v1 b f h dd, v6_apply]

/-! ## The scores -/

/-- Head `h`'s columns of a projection of batch element `b`. -/
abbrev hproj (x0 : XArr) (w : WArr) (b : Fin 16384) (h : Fin 2) : Fin 40 → Fin 64 → EReal :=
  fun f c => proj (rows x0 b) (mat w) f (col h c)

/-- The scores of batch element `b` in head `h`. -/
abbrev sc (x0 : XArr) (x1 x2 : WArr) (b : Fin 16384) (h : Fin 2) (q : Fin 40) : Fin 40 → EReal :=
  score (hproj x0 x1 b h) (hproj x0 x2 b h) q

/-- The score of row `q` against row `k`: term `dd` multiplies the query at (h, b, q, dd) by the key at (h, b, k, dd). -/
theorem v9_apply (x0 : XArr) (x1 x2 : WArr) (h : Fin 2) (b : Fin 16384) (q k : Fin 40) :
    val_main_v9 (F := Ideal) x0 x1 x2 (ix4 h b q k) = sc x0 x1 x2 b h q k := by
  rw [val_main_v9_apply]
  show _ = ∑ dd : Fin 64, hproj x0 x1 b h q dd * hproj x0 x2 b h k dd
  refine Finset.sum_congr rfl fun dd _ => ?_
  have el : lidx_main_v9 (ix4 h b q k) dd = ix4 h b q dd :=
    funext fun a => Fin.ext (by match a with | ⟨0, _⟩ => rfl | ⟨1, _⟩ => rfl | ⟨2, _⟩ => rfl | ⟨3, _⟩ => rfl)
  have er : ridx_main_v9 (ix4 h b q k) dd = ix4 h b k dd :=
    funext fun a => Fin.ext (by match a with | ⟨0, _⟩ => rfl | ⟨1, _⟩ => rfl | ⟨2, _⟩ => rfl | ⟨3, _⟩ => rfl)
  rw [el, er, v2_apply, v5_apply]

/-! ## The row maximum -/

/-- The reduced index (h, b, q) with coordinate `k` put back on the last axis is (h, b, q, k). -/
theorem lift_ix3 (hr : S2x16384x40x40.Reduces [3] S2x16384x40) (h : Fin 2) (b : Fin 16384) (q : Fin 40)
    (k : Fin (S2x16384x40x40.size 3)) : hr.lift (ix3 h b q) k = ix4 h b q (⟨k.val, k.isLt⟩ : Fin 40) := by
  funext c; apply Fin.ext
  match c with
  | ⟨0, _⟩ => rfl
  | ⟨1, _⟩ => rfl
  | ⟨2, _⟩ => rfl
  | ⟨3, _⟩ => rfl

/-- The maximum over the last axis, from −∞, at (h, b, q): the fold of `max` over the row of scores. -/
theorem v10_apply (x0 : XArr) (x1 x2 : WArr) (h : Fin 2) (b : Fin 16384) (q : Fin 40) :
    val_main_v10 (F := Ideal) x0 x1 x2 (ix3 h b q)
      = (Finset.univ : Finset (Fin 40)).fold max negInf (fun k => val_main_v9 (F := Ideal) x0 x1 x2 (ix4 h b q k)) := by
  unfold val_main_v10
  generalize val_main_v9 (F := Ideal) x0 x1 x2 = y
  have hr : S2x16384x40x40.Reduces [3] S2x16384x40 := by decide
  refine (Host.reduce_eq_fold_single (α := Ideal .f32) (s := S2x16384x40x40) (t := S2x16384x40) (a := 3)
    FloatOps.maximumf y _ reducesTo_S2x16384x40x40_S2x16384x40_d3 hr h_S_ (ix3 h b q)).trans ?_
  have hf : (y ∘ hr.lift (ix3 h b q)) = fun k : Fin 40 => y (ix4 h b q k) :=
    funext fun k => congrArg y (lift_ix3 hr h b q k)
  rw [hf]
  rfl

/-- The row of scores, as the reference computes it, is `sc`. -/
theorem v9_row (x0 : XArr) (x1 x2 : WArr) (h : Fin 2) (b : Fin 16384) (q : Fin 40) :
    (fun k : Fin 40 => val_main_v9 (F := Ideal) x0 x1 x2 (ix4 h b q k)) = sc x0 x1 x2 b h q :=
  funext fun k => v9_apply x0 x1 x2 h b q k

/-- The row maximum at (h, b, q): −∞ compared with the maximum, from −∞, of the row of scores. -/
theorem v12_apply (x0 : XArr) (x1 x2 : WArr) (h : Fin 2) (b : Fin 16384) (q : Fin 40) :
    val_main_v12 (F := Ideal) x0 x1 x2 (ix3 h b q) = rowMax (sc x0 x1 x2 b h q) := by
  rw [val_main_v12_apply, val_main_v11_apply, val_main_cst_0_apply, v10_apply, v9_row]
  rfl

/-! ## The softmax -/

/-- The shifted exponential at (h, b, q, k). -/
theorem v16_apply (x0 : XArr) (x1 x2 : WArr) (h : Fin 2) (b : Fin 16384) (q k : Fin 40) :
    val_main_v16 (F := Ideal) x0 x1 x2 (ix4 h b q k) = rowExp (sc x0 x1 x2 b h q) k := by
  have e : idx_main_v13 (idx_main_v14 (ix4 h b q k)) = ix3 h b q :=
    funext fun a => Fin.ext (by match a with | ⟨0, _⟩ => rfl | ⟨1, _⟩ => rfl | ⟨2, _⟩ => rfl)
  rw [val_main_v16_apply, val_main_v15_apply, val_main_v14_apply, val_main_v13_apply, e, v12_apply, v9_apply]
  rfl

/-- The row of shifted exponentials, as the reference computes it, is `rowExp`. -/
theorem v16_row (x0 : XArr) (x1 x2 : WArr) (h : Fin 2) (b : Fin 16384) (q : Fin 40) :
    (fun k : Fin 40 => val_main_v16 (F := Ideal) x0 x1 x2 (ix4 h b q k)) = rowExp (sc x0 x1 x2 b h q) :=
  funext fun k => v16_apply x0 x1 x2 h b q k

/-- The sum of the shifted exponentials of a row, at (h, b, q): the sum starts from the zero word, which is 0. -/
theorem v17_apply (x0 : XArr) (x1 x2 : WArr) (h : Fin 2) (b : Fin 16384) (q : Fin 40) :
    val_main_v17 (F := Ideal) x0 x1 x2 (ix3 h b q) = ∑ k : Fin 40, rowExp (sc x0 x1 x2 b h q) k := by
  rw [val_main_v17_apply, val_main_cst_1_apply, Ideal.ofBits_def, Ideal.ofBits_zero_f32, zero_add]
  refine Finset.sum_congr rfl fun k _ => ?_
  have e : idx_main_v17 (ix3 h b q) k = ix4 h b q k :=
    funext fun a => Fin.ext (by match a with | ⟨0, _⟩ => rfl | ⟨1, _⟩ => rfl | ⟨2, _⟩ => rfl | ⟨3, _⟩ => rfl)
  rw [e, v16_apply]

/-- The softmax at (h, b, q, k). -/
theorem v20_apply (x0 : XArr) (x1 x2 : WArr) (h : Fin 2) (b : Fin 16384) (q k : Fin 40) :
    val_main_v20 (F := Ideal) x0 x1 x2 (ix4 h b q k) = softmax (sc x0 x1 x2 b h q) k := by
  have e : idx_main_v18 (idx_main_v19 (ix4 h b q k)) = ix3 h b q :=
    funext fun a => Fin.ext (by match a with | ⟨0, _⟩ => rfl | ⟨1, _⟩ => rfl | ⟨2, _⟩ => rfl)
  rw [val_main_v20_apply, val_main_v19_apply, val_main_v18_apply, e, v17_apply, v16_apply]
  rfl

/-! ## The heads -/

/-- Head `h`'s output at (h, b, q, dd): term `k` multiplies the softmax at (h, b, q, k) by the value at (h, b, k, dd). -/
theorem v21_apply (x0 : XArr) (x1 x2 x3 : WArr) (h : Fin 2) (b : Fin 16384) (q : Fin 40) (dd : Fin 64) :
    val_main_v21 (F := Ideal) x0 x1 x2 x3 (ix4 h b q dd)
      = head (hproj x0 x1 b h) (hproj x0 x2 b h) (hproj x0 x3 b h) q dd := by
  rw [val_main_v21_apply]
  show _ = ∑ k : Fin 40, softmax (sc x0 x1 x2 b h q) k * hproj x0 x3 b h k dd
  refine Finset.sum_congr rfl fun k _ => ?_
  have el : lidx_main_v21 (ix4 h b q dd) k = ix4 h b q k :=
    funext fun a => Fin.ext (by match a with | ⟨0, _⟩ => rfl | ⟨1, _⟩ => rfl | ⟨2, _⟩ => rfl | ⟨3, _⟩ => rfl)
  have er : ridx_main_v21 (ix4 h b q dd) k = ix4 h b k dd :=
    funext fun a => Fin.ext (by match a with | ⟨0, _⟩ => rfl | ⟨1, _⟩ => rfl | ⟨2, _⟩ => rfl | ⟨3, _⟩ => rfl)
  rw [el, er, v20_apply, v8_apply]

/-- The transpose [1,2,0,3] reads (b, q, h, dd) at (h, b, q, dd). -/
theorem idx_v22 (b : Fin 16384) (q : Fin 40) (h : Fin 2) (dd : Fin 64) :
    idx_main_v22 (ix4 b q h dd) = ix4 h b q dd :=
  funext fun a => Fin.ext (by match a with | ⟨0, _⟩ => rfl | ⟨1, _⟩ => rfl | ⟨2, _⟩ => rfl | ⟨3, _⟩ => rfl)

/-- The reshape 2 × 64 → 128 reads column `d` at head `d / 64`, position `d % 64`. -/
theorem idx_v23 (b : Fin 16384) (q : Fin 40) (d : Fin 128) :
    idx_main_v23 (ix3 b q d) = ix4 b q (hd d) (off d) :=
  funext fun a => Fin.ext (by
    have hb := b.isLt; have hq := q.isLt; have hdlt := d.isLt
    match a with
    | ⟨0, _⟩ => show ((b.val * 40 + q.val) * 128 + d.val) / 5120 = b.val; omega
    | ⟨1, _⟩ => show ((b.val * 40 + q.val) * 128 + d.val) / 128 % 40 = q.val; omega
    | ⟨2, _⟩ => show ((b.val * 40 + q.val) * 128 + d.val) / 64 % 2 = d.val / 64; omega
    | ⟨3, _⟩ => show ((b.val * 40 + q.val) * 128 + d.val) % 64 = d.val % 64; omega)

/-- The heads laid side by side, at (b, q, d): the output of head `d / 64` at position `d % 64`. -/
theorem v23_apply (x0 : XArr) (x1 x2 x3 : WArr) (b : Fin 16384) (q : Fin 40) (d : Fin 128) :
    val_main_v23 (F := Ideal) x0 x1 x2 x3 (ix3 b q d)
      = head (hproj x0 x1 b (hd d)) (hproj x0 x2 b (hd d)) (hproj x0 x3 b (hd d)) q (off d) := by
  rw [val_main_v23_apply, val_main_v22_apply, idx_v23, idx_v22, v21_apply]

/-! ## The result -/

/-- The last stage at (b, q, d): the head output plus the residual projection, clipped below at the zero word. -/
theorem v26_apply (x0 : XArr) (x1 x2 x3 x4 : WArr) (b : Fin 16384) (q : Fin 40) (d : Fin 128) :
    val_main_v26 (F := Ideal) x0 x1 x2 x3 x4 (ix3 b q d) = G x0 x1 x2 x3 x4 (ix3 b q d) := by
  rw [val_main_v26_apply, val_main_v25_apply, val_main_call0_v0_apply, val_main_call0_cst_apply, v23_apply, v24_apply]
  show _ = attn (rows x0 b) (mat x1) (mat x2) (mat x3) (mat x4) q (hd d) (off d)
  unfold attn
  rw [col_hd_off]
  rfl

/-- The reference's result, as a function of its five argument arrays, is `G`. -/
theorem ref_eq (x0 : (⟨Cert.ReferenceIdeal.S16384x40x128, .f32⟩ : BufTy).Contents (Elt Ideal))
    (x1 x2 x3 x4 : (⟨Cert.ReferenceIdeal.S128x128, .f32⟩ : BufTy).Contents (Elt Ideal)) :
    Cert.ReferenceIdeal.Read.val_main_v26 (F := Ideal) x0 x1 x2 x3 x4 = Cert.Attn.G x0 x1 x2 x3 x4 := by
  funext i
  obtain ⟨b, q, d, rfl⟩ : ∃ (b : Fin 16384) (q : Fin 40) (d : Fin 128), i = ix3 b q d := ⟨i 0, i 1, i 2, eq_ix3 i⟩
  exact v26_apply x0 x1 x2 x3 x4 b q d

end Cert.Attn.Ref

end
-- ==== Proof.lean ====
/-
  The kernel computes multi-head self-attention with a residual projection and a ReLU, and so does the reference.

  Both programs read x : [16384, 40, 128] and four 128 × 128 matrices. For each batch element the 40 rows are
  projected four times (query, key, value, residual); the 128 projected columns are two heads of 64; inside a head
  the scores q · k are normalised by a softmax over the key rows (the row maximum, from −∞, subtracted before the
  exponential; the exponentials divided by their sum) and weight the value rows; the heads are laid side by side
  again, the residual projection is added and the result is clipped below at zero. `Proof/Spec.lean` states this as
  one function `G` of the five argument arrays, index by index, on the extended reals.

  The kernel works on blocks of 128 batch elements, one per grid point; inside a block every batch element is
  treated alone, so what a grid point writes is `G` restricted to the block's batch elements (`Proof/KerPay.lean`
  over `Proof/KerHead.lean`, `KerOps.lean`, `KerRows.lean`), and the blocks tile the result array
  (`Proof/KerArray.lean`). The reference computes every batch element and head at once on four-axis arrays; read
  index by index it is `G` as well (`Proof/RefValue.lean`). On the extended reals the two agree with no hypothesis
  of finiteness: they apply the same exact operations to the same numbers, and differ only in how the arrays are
  laid out and in the order of the terms of their sums. A change of float format is the identity there, so the
  idealization rewrote nothing and `preserves` is trivial. The three frames are the generated ones (the
  reference's is its generated run with the result dropped).
-/
import proofs.«127447_j10763188044027_1_alg».proof.Defs
import proofs.«127447_j10763188044027_1_alg».proof.Proof.Gen.Kernel
import proofs.«127447_j10763188044027_1_alg».proof.Proof.Gen.Kernel.Skeleton
import proofs.«127447_j10763188044027_1_alg».proof.Proof.Gen.Kernel.Launch
import proofs.«127447_j10763188044027_1_alg».proof.Proof.Gen.Kernel.Points
import proofs.«127447_j10763188044027_1_alg».proof.Proof.Gen.Kernel.Frame
import proofs.«127447_j10763188044027_1_alg».proof.Proof.Gen.KernelIdeal
import proofs.«127447_j10763188044027_1_alg».proof.Proof.Gen.KernelIdeal.Skeleton
import proofs.«127447_j10763188044027_1_alg».proof.Proof.Gen.KernelIdeal.Launch
import proofs.«127447_j10763188044027_1_alg».proof.Proof.Gen.KernelIdeal.Points
import proofs.«127447_j10763188044027_1_alg».proof.Proof.Gen.KernelIdeal.Frame
import proofs.«127447_j10763188044027_1_alg».proof.Proof.Gen.ReferenceIdeal
import proofs.«127447_j10763188044027_1_alg».proof.Proof.Gen.Pre_finite_inputs
import proofs.«127447_j10763188044027_1_alg».proof.Proof.Gen.KernelIdeal.Value
import proofs.«127447_j10763188044027_1_alg».proof.Proof.Gen.ReferenceIdeal.Run
import proofs.«127447_j10763188044027_1_alg».proof.Proof.Gen.ReferenceIdeal.Read
import proofs.«127447_j10763188044027_1_alg».proof.Proof.KerArray
import proofs.«127447_j10763188044027_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both idealized programs end with the result array `G` of the
    arguments: the kernel block by block, the reference index by index. -/
theorem algebraic : Cert.algebraic_KernelIdeal_ReferenceIdeal := by
  intro m ρ m' ρ' _ hagree
  refine ⟨_, Cert.Attn.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Attn.Ref.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
